-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S2000x1024 : Shape := ⟨2, ![2000, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S2000x1024 : S_.BroadcastsInDim S2000x1024 (![] : Fin 0 → Fin S2000x1024.rank)
  reducesTo_S2000x1024_S_d0_1 : S2000x1024.ReducesTo [0, 1] S_

variable [Facts]

def fn_part1 {F : FTy → Type} [FloatOps F] (main_v13 : IVec S_ 1) (main_v15 : IVec S2000x1024 1) (main_c_5 : IVec S_ 1) : IVec S_ 1 :=
  let main_v16 : IVec S_ 1 := (fun x v => Host.reduce IntOp.andi x v reducesTo_S2000x1024_S_d0_1 h_S_) main_v15 main_c_5
  let main_v17 : IVec S_ 1 := andi main_v13 main_v16
  main_v17

def fn {F : FTy → Type} [FloatOps F] (main_arg0 : FVec F S16x1024x1024 .f32) (main_arg1 : FVec F S2000x1024 .f32) (main_arg2 : FVec F S2000x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S2000x1024 .f32 := Host.absf main_arg1
  let main_cst_0 : FVec F S_ .f32 := constant S_ .f32 0x7F800000#32
  let main_v5 : FVec F S2000x1024 .f32 := broadcastInDim S2000x1024 ![] bcast_S_S2000x1024 main_cst_0
  let main_v6 : IVec S2000x1024 1 := cmpf .olt main_v4 main_v5
  let main_c_1 : IVec S_ 1 := constantI S_ 1 1#1
  let main_v7 : IVec S_ 1 := (fun x v => Host.reduce IntOp.andi x v reducesTo_S2000x1024_S_d0_1 h_S_) main_v6 main_c_1
  let main_v8 : IVec S_ 1 := andi main_v3 main_v7
  let main_v9 : FVec F S2000x1024 .f32 := Host.absf main_arg2
  let main_cst_2 : FVec F S_ .f32 := constant S_ .f32 0x7F800000#32
  let main_v10 : FVec F S2000x1024 .f32 := broadcastInDim S2000x1024 ![] bcast_S_S2000x1024 main_cst_2
  let main_v11 : IVec S2000x1024 1 := cmpf .olt main_v9 main_v10
  let main_c_3 : IVec S_ 1 := constantI S_ 1 1#1
  let main_v12 : IVec S_ 1 := (fun x v => Host.reduce IntOp.andi x v reducesTo_S2000x1024_S_d0_1 h_S_) main_v11 main_c_3
  let main_v13 : IVec S_ 1 := andi main_v8 main_v12
  let main_cst_4 : FVec F S_ .f32 := constant S_ .f32 0x00000000#32
  let main_v14 : FVec F S2000x1024 .f32 := broadcastInDim S2000x1024 ![] bcast_S_S2000x1024 main_cst_4
  let main_v15 : IVec S2000x1024 1 := cmpf .ogt main_arg2 main_v14
  let main_c_5 : IVec S_ 1 := constantI S_ 1 1#1
  fn_part1 (F := F) main_v13 main_v15 main_c_5
-- ==== Kernel.lean ====
abbrev S16x1024x1024 : Shape := ⟨3, ![16, 1024, 1024]⟩
abbrev S2000x1024 : Shape := ⟨2, ![2000, 1024]⟩
abbrev S16384x1024 : Shape := ⟨2, ![16384, 1024]⟩
abbrev S_ : Shape := ⟨0, ![]⟩
abbrev S2000 : Shape := ⟨1, ![2000]⟩
abbrev S1x2000 : Shape := ⟨2, ![1, 2000]⟩
abbrev S2048x1024 : Shape := ⟨2, ![2048, 1024]⟩
abbrev S1024x2048 : Shape := ⟨2, ![1024, 2048]⟩
abbrev S2048x2048 : Shape := ⟨2, ![2048, 2048]⟩
abbrev S16384x2000 : Shape := ⟨2, ![16384, 2000]⟩
abbrev S512x1024 : Shape := ⟨2, ![512, 1024]⟩
abbrev S512x2000 : Shape := ⟨2, ![512, 2000]⟩
abbrev S512x2048 : Shape := ⟨2, ![512, 2048]⟩
abbrev S16x1024x2000 : Shape := ⟨3, ![16, 1024, 2000]⟩

abbrev nBuf : Space → Nat
  | .hbm => 41
  | .vmem => 6
  | .smem => 0
  | _ => 0

abbrev bufTy : (tb : Table) → Fin (tcTables nBuf tb) → BufTy
  | .hbm, ⟨0, _⟩ => ⟨S16x1024x1024, .f32⟩
  | .hbm, ⟨1, _⟩ => ⟨S2000x1024, .f32⟩
  | .hbm, ⟨2, _⟩ => ⟨S2000x1024, .f32⟩
  | .hbm, ⟨3, _⟩ => ⟨S16384x1024, .f32⟩
  | .hbm, ⟨4, _⟩ => ⟨S_, .f32⟩
  | .hbm, ⟨5, _⟩ => ⟨S2000x1024, .f32⟩
  | .hbm, ⟨6, _⟩ => ⟨S2000x1024, .f32⟩
  | .hbm, ⟨7, _⟩ => ⟨S2000x1024, .f32⟩
  | .hbm, ⟨8, _⟩ => ⟨S2000x1024, .f32⟩
  | .hbm, ⟨9, _⟩ => ⟨S2000x1024, .f32⟩
  | .hbm, ⟨10, _⟩ => ⟨S_, .f32⟩
  | .hbm, ⟨11, _⟩ => ⟨S2000, .f32⟩
  | .hbm, ⟨12, _⟩ => ⟨S2000x1024, .f32⟩
  | .hbm, ⟨13, _⟩ => ⟨S_, .f32⟩
  | .hbm, ⟨14, _⟩ => ⟨S2000, .f32⟩
  | .hbm, ⟨15, _⟩ => ⟨S_, .f32⟩
  | .hbm, ⟨16, _⟩ => ⟨S2000, .f32⟩
  | .hbm, ⟨17, _⟩ => ⟨S2000, .f32⟩
  | .hbm, ⟨18, _⟩ => ⟨S_, .f32⟩
  | .hbm, ⟨19, _⟩ => ⟨S2000, .f32⟩
  | .hbm, ⟨20, _⟩ => ⟨S2000, .f32⟩
  | .hbm, ⟨21, _⟩ => ⟨S_, .f32⟩
  | .hbm, ⟨22, _⟩ => ⟨S2000, .f32⟩
  | .hbm, ⟨23, _⟩ => ⟨S2000, .f32⟩
  | .hbm, ⟨24, _⟩ => ⟨S2000, .f32⟩
  | .hbm, ⟨25, _⟩ => ⟨S1x2000, .f32⟩
  | .hbm, ⟨26, _⟩ => ⟨S_, .i32⟩
  | .hbm, ⟨27, _⟩ => ⟨S_, .f32⟩
  | .hbm, ⟨28, _⟩ => ⟨S2048x1024, .f32⟩
  | .hbm, ⟨29, _⟩ => ⟨S_, .i32⟩
  | .hbm, ⟨30, _⟩ => ⟨S_, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S1024x2048, .f32⟩
  | .hbm, ⟨36, _⟩ => ⟨S1024x2048, .f32⟩
  | .hbm, ⟨37, _⟩ => ⟨S2048x2048, .f32⟩
  | .hbm, ⟨38, _⟩ => ⟨S2048x2048, .bf16⟩
  | .hbm, ⟨39, _⟩ => ⟨S16384x2000, .f32⟩
  | .hbm, ⟨40, _⟩ => ⟨S16x1024x2000, .f32⟩
  | .local _ .vmem, ⟨0, _⟩ => ⟨S512x1024, .f32⟩
  | .local _ .vmem, ⟨1, _⟩ => ⟨S512x1024, .f32⟩
  | .local _ .vmem, ⟨2, _⟩ => ⟨S2048x2048, .bf16⟩
  | .local _ .vmem, ⟨3, _⟩ => ⟨S1x2000, .f32⟩
  | .local _ .vmem, ⟨4, _⟩ => ⟨S512x2000, .f32⟩
  | .local _ .vmem, ⟨5, _⟩ => ⟨S512x2000, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_c_5 : Ref sig .tc := ⟨.hbm, 29, rfl⟩
abbrev main_call1_v0 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x1024x1024_S16384x1024 : S16x1024x1024.ShapeCasts S16384x1024
  bcast_S_S2000x1024 : S_.BroadcastsInDim S2000x1024 (![] : Fin 0 → Fin S2000x1024.rank)
  reducesTo_S2000x1024_S2000_d1 : S2000x1024.ReducesTo [1] S2000
  h_S_ : 0 < S_.numel
  bcast_S_S2000 : S_.BroadcastsInDim S2000 (![] : Fin 0 → Fin S2000.rank)
  shapeCasts_S2000_S1x2000 : S2000.ShapeCasts S1x2000
  pads_S2000x1024_S2048x1024_0480_000 : S2000x1024.Pads (![0, 0] : Fin 2 → Nat) ![48, 0] ![0, 0] S2048x1024
  bcast_S_S2048x1024 : S_.BroadcastsInDim S2048x1024 (![] : Fin 0 → Fin S2048x1024.rank)
  transposes_S2048x1024_S1024x2048_1_0 : S2048x1024.Transposes [1, 0] S1024x2048
  concatenates_S1024x2048_S1024x2048_S2048x2048_d0 : Shape.Concatenates [S1024x2048, S1024x2048] S2048x2048 0
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  concatenates_S512x1024_S512x1024_S512x2048_d1 : Shape.Concatenates [S512x1024, S512x1024] S512x2048 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  slices_S512x2048_o0_0_S512x2000 : S512x2048.Slices ![0, 0] S512x2000
  broadcasts_S1x2000_S512x2000 : S1x2000.Broadcasts S512x2000
  inb_S512x2000_S512x2000_0_0 : ∀ a, (![0, 0] : Fin 2 → Nat) a + S512x2000.size a ≤ S512x2000.size a
  h_S512x2000 : 0 < S512x2000.numel
  shapeCasts_S16384x2000_S16x1024x2000 : S16384x2000.ShapeCasts S16x1024x2000
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000.size a ≤ S1x2000.size a
  hwx0_2 : ∀ i : grid0.Coords, EltTy.bits .f32 = 32 ∨ (Rect.block (s := S1x2000) S1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2000.size a ≤ S16384x2000.size a
  hwx0_3 : ∀ i : grid0.Coords, EltTy.bits .f32 = 32 ∨ (Rect.block (s := S16384x2000) S512x2000.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S512x2000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S2000x1024 : Shape := ⟨2, ![2000, 1024]⟩
abbrev S_ : Shape := ⟨0, ![]⟩
abbrev S16x1024x2000 : Shape := ⟨3, ![16, 1024, 2000]⟩
abbrev S2000 : Shape := ⟨1, ![2000]⟩
abbrev S1x1x2000 : Shape := ⟨3, ![1, 1, 2000]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S2000x1024, .f32⟩
  | .hbm, ⟨2, _⟩ => ⟨S2000x1024, .f32⟩
  | .hbm, ⟨3, _⟩ => ⟨S_, .f32⟩
  | .hbm, ⟨4, _⟩ => ⟨S2000x1024, .f32⟩
  | .hbm, ⟨5, _⟩ => ⟨S2000x1024, .f32⟩
  | .hbm, ⟨6, _⟩ => ⟨S16x1024x1024, .f32⟩
  | .hbm, ⟨7, _⟩ => ⟨S16x1024x2000, .f32⟩
  | .hbm, ⟨8, _⟩ => ⟨S2000x1024, .f32⟩
  | .hbm, ⟨9, _⟩ => ⟨S16x1024x2000, .f32⟩
  | .hbm, ⟨10, _⟩ => ⟨S_, .f32⟩
  | .hbm, ⟨11, _⟩ => ⟨S16x1024x2000, .f32⟩
  | .hbm, ⟨12, _⟩ => ⟨S16x1024x2000, .f32⟩
  | .hbm, ⟨13, _⟩ => ⟨S16x1024x2000, .f32⟩
  | .hbm, ⟨14, _⟩ => ⟨S2000x1024, .f32⟩
  | .hbm, ⟨15, _⟩ => ⟨S2000x1024, .f32⟩
  | .hbm, ⟨16, _⟩ => ⟨S_, .f32⟩
  | .hbm, ⟨17, _⟩ => ⟨S2000, .f32⟩
  | .hbm, ⟨18, _⟩ => ⟨S1x1x2000, .f32⟩
  | .hbm, ⟨19, _⟩ => ⟨S16x1024x2000, .f32⟩
  | .hbm, ⟨20, _⟩ => ⟨S16x1024x2000, .f32⟩
  | .hbm, ⟨21, _⟩ => ⟨S2000x1024, .f32⟩
  | .hbm, ⟨22, _⟩ => ⟨S_, .f32⟩
  | .hbm, ⟨23, _⟩ => ⟨S2000, .f32⟩
  | .hbm, ⟨24, _⟩ => ⟨S_, .f32⟩
  | .hbm, ⟨25, _⟩ => ⟨S2000, .f32⟩
  | .hbm, ⟨26, _⟩ => ⟨S2000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16x1024x2000, .f32⟩
  | .hbm, ⟨31, _⟩ => ⟨S16x1024x2000, .f32⟩
  | .hbm, ⟨32, _⟩ => ⟨S_, .f32⟩
  | .hbm, ⟨33, _⟩ => ⟨S16x1024x2000, .f32⟩
  | .hbm, ⟨34, _⟩ => ⟨S16x1024x2000, .f32⟩
  | .hbm, ⟨35, _⟩ => ⟨S1x1x2000, .f32⟩
  | .hbm, ⟨36, _⟩ => ⟨S16x1024x2000, .f32⟩
  | .hbm, ⟨37, _⟩ => ⟨S16x1024x2000, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S2000x1024 : S_.BroadcastsInDim S2000x1024 (![] : Fin 0 → Fin S2000x1024.rank)
  bcast_S_S16x1024x2000 : S_.BroadcastsInDim S16x1024x2000 (![] : Fin 0 → Fin S16x1024x2000.rank)
  reducesTo_S2000x1024_S2000_d1 : S2000x1024.ReducesTo [1] S2000
  h_S_ : 0 < S_.numel
  bcast_S2000_S1x1x2000_2 : S2000.BroadcastsInDim S1x1x2000 (![2] : Fin 1 → Fin S1x1x2000.rank)
  bcast_S1x1x2000_S16x1024x2000_0_1_2 : S1x1x2000.BroadcastsInDim S16x1024x2000 (![0, 1, 2] : Fin 3 → Fin S16x1024x2000.rank)
  bcast_S_S2000 : S_.BroadcastsInDim S2000 (![] : Fin 0 → Fin S2000.rank)
  dot_S16x1024x1024_S2000x1024_S16x1024x2000_2_1_01_0_n_n_wf : DotDims.WF S16x1024x1024 S2000x1024 S16x1024x2000 [2] [1] [0, 1] [0] [] []

variable [Facts₀]

def dot_S16x1024x1024_S2000x1024_S16x1024x2000_2_1_01_0_n_n : DotDims S16x1024x1024 S2000x1024 S16x1024x2000 where
  lhsContracting := [2]
  rhsContracting := [1]
  lhsNonContracting := [0, 1]
  rhsNonContracting := [0]
  lhsBatch := []
  rhsBatch := []
  wf := dot_S16x1024x1024_S2000x1024_S16x1024x2000_2_1_01_0_n_n_wf

class Facts : Prop extends Facts₀ where

variable [Facts]
-- ==== Proof.Spec.lean ====
/-
  The two sides of the claim as formulas on the extended reals, entry by entry.

  For a frame (b, t) with features x_d (d < 1024) and a component j with means μ_d and variances c_d, write
  p_d = 1 / c_d.  The reference computes the diagonal-Gaussian log-likelihood as

      -½ · (1024·log 2π + ((Σ_d x_d² p_d − 2 Σ_d x_d (μ_d p_d)) + Σ_d μ_d² p_d)) + (-½ · Σ_d log c_d),

  and the kernel computes it as one contraction of the row [x² | x] against the column [-½ p ; μ p], plus a bias that is
  prepared outside the contraction:

      (Σ_d x_d² (-½ p_d) + Σ_d x_d (μ_d p_d)) + (-½ · (K + Σ_d μ_d² p_d) + (-½ · Σ_d log c_d)),

  where K is the single-precision word of 1024·log 2π.  Every float constant is kept as the word the programs print.
-/
import Idealize.ShloMosaic.PureOps.Ideal
import Idealize.ShloMosaic.Lib.ValueIdx

noncomputable section

namespace Cert.Spec

open Idealize.ShloMosaic Idealize.ShloMosaic.ValueIdx

/-- The shape of the frames, [16, 1024, 1024]; of the means and of the variances, [2000, 1024]; of the result. -/
abbrev SX : Shape := ⟨3, ![16, 1024, 1024]⟩
abbrev SM : Shape := ⟨2, ![2000, 1024]⟩
abbrev SO : Shape := ⟨3, ![16, 1024, 2000]⟩

/-- The float constants of the two programs, as the extended reals their words denote. -/
abbrev cZero : EReal := Ideal.ofBits .f32 0x00000000#32
abbrev cOne : EReal := Ideal.ofBits .f32 0x3F800000#32
abbrev cTwo : EReal := Ideal.ofBits .f32 0x40000000#32
abbrev cNegHalf : EReal := Ideal.ofBits .f32 0xBF000000#32
abbrev c1024 : EReal := Ideal.ofBits .f32 0x44800000#32
abbrev cLog2pi : EReal := Ideal.ofBits .f32 0x3FEB3F8E#32
abbrev cK : EReal := Ideal.ofBits .f32 0x44EB3F8E#32

/-- The reciprocal variance p = 1 / c of component j at feature d. -/
def prec (C : SM.Idx → EReal) (j : Fin 2000) (d : Fin 1024) : EReal :=
  Ideal.div cOne (C (ix2 j d))

/-- Σ_d μ_d² p_d of component j, summed from the zero word. -/
def quadBias (M C : SM.Idx → EReal) (j : Fin 2000) : EReal :=
  cZero + ∑ d : Fin 1024, (M (ix2 j d) * M (ix2 j d)) * prec C j d

/-- -½ · Σ_d log c_d of component j. -/
def logDet (C : SM.Idx → EReal) (j : Fin 2000) : EReal :=
  cNegHalf * (cZero + ∑ d : Fin 1024, Ideal.log (C (ix2 j d)))

/-- The reference's value at frame (b, t) and component j. -/
def refAt (X : SX.Idx → EReal) (M C : SM.Idx → EReal) (b : Fin 16) (t : Fin 1024) (j : Fin 2000) : EReal :=
  cNegHalf * ((c1024 * cLog2pi)
      + (((∑ d : Fin 1024, (X (ix3 b t d) * X (ix3 b t d)) * prec C j d)
          - cTwo * (∑ d : Fin 1024, X (ix3 b t d) * (M (ix2 j d) * prec C j d)))
        + quadBias M C j))
    + logDet C j

/-- The kernel's value at frame (b, t) and component j. -/
def kerAt (X : SX.Idx → EReal) (M C : SM.Idx → EReal) (b : Fin 16) (t : Fin 1024) (j : Fin 2000) : EReal :=
  ((∑ d : Fin 1024, (X (ix3 b t d) * X (ix3 b t d)) * (cNegHalf * prec C j d))
      + (∑ d : Fin 1024, X (ix3 b t d) * (M (ix2 j d) * prec C j d)))
    + ((cNegHalf * (cK + quadBias M C j)) + logDet C j)

/-- The arrays as whole functions of an index of the result. -/
def refG (X : SX.Idx → EReal) (M C : SM.Idx → EReal) (i : SO.Idx) : EReal := refAt X M C (i 0) (i 1) (i 2)
def kerG (X : SX.Idx → EReal) (M C : SM.Idx → EReal) (i : SO.Idx) : EReal := kerAt X M C (i 0) (i 1) (i 2)

/-- What the precondition gives: every frame entry and every mean is a real number, every variance a positive real. -/
structure Domain (X : SX.Idx → EReal) (M C : SM.Idx → EReal) : Prop where
  x_real : ∀ i, ∃ r : ℝ, X i = (r : EReal)
  mu_real : ∀ i, ∃ r : ℝ, M i = (r : EReal)
  cov_pos : ∀ i, ∃ r : ℝ, 0 < r ∧ C i = (r : EReal)

end Cert.Spec

end
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.Algebra.lean ====
/-
  On the domain the two formulas are the same extended real.

  Under the domain every frame entry and every mean is the cast of a real and every variance the cast of a positive real
  c, so the reciprocal variance is the cast of 1 / c, its logarithm the cast of log c, and every sum the cast of a real
  sum. The float words denote 0, 1, 2, -1/2, 1024, the dyadic real l = 15417230 / 2^23 and 1024 * l exactly, so the
  kernel's folded constant K is the reference's product 1024 * l. What is left is an identity of real numbers:

      (sum x^2 (-1/2 p) + sum x (mu p)) + (-1/2 (K + B) + L) = -1/2 (K + ((sum x^2 p - 2 sum x (mu p)) + B)) + L,

  which holds because sum x^2 (-1/2 p) = -1/2 sum x^2 p and the rest is linear.
-/
import proofs.«119530_j10831907520641_2_alg».proof.Proof.Spec
import proofs.«119530_j10831907520641_2_alg».proof.Proof.LibRealSums
import Mathlib.Tactic

noncomputable section

namespace Cert.Algebra

open Idealize.ShloMosaic Idealize.ShloMosaic.ValueIdx Cert.Spec

/-! ### The float words as real numbers -/

theorem cZero_eq : cZero = ((0 : ℝ) : EReal) := by
  simp [Ideal.ofBits, Ideal.ieee]

theorem cOne_eq : cOne = ((1 : ℝ) : EReal) := by
  simp [Ideal.ofBits, Ideal.ieee, -EReal.coe_mul]; norm_num

theorem cTwo_eq : cTwo = ((2 : ℝ) : EReal) := by
  simp [Ideal.ofBits, Ideal.ieee, -EReal.coe_mul]; norm_num

theorem cNegHalf_eq : cNegHalf = ((-(1 / 2) : ℝ) : EReal) := by
  simp [Ideal.ofBits, Ideal.ieee, -EReal.coe_mul]; norm_num

theorem c1024_eq : c1024 = ((1024 : ℝ) : EReal) := by
  simp [Ideal.ofBits, Ideal.ieee, -EReal.coe_mul]; norm_num

/-- The word of log 2π: significand 15417230, exponent -23. -/
theorem cLog2pi_eq : cLog2pi = ((15417230 / 8388608 : ℝ) : EReal) := by
  simp [Ideal.ofBits, Ideal.ieee, -EReal.coe_mul]; norm_num

/-- The word of 1024 · log 2π has the same significand and the exponent ten higher: it is the product exactly. -/
theorem cK_eq : cK = ((1024 * (15417230 / 8388608) : ℝ) : EReal) := by
  simp [Ideal.ofBits, Ideal.ieee, -EReal.coe_mul]; norm_num

/-! ### The identity over the reals -/

/-- Folding -1/2 into the second factor of each term folds it out of the sum. -/
theorem sum_fold_neg_half {n : ℕ} (x p : Fin n → ℝ) :
    (∑ d, (x d * x d) * (-(1 / 2) * p d)) = -(1 / 2) * ∑ d, (x d * x d) * p d := by
  rw [Finset.mul_sum]
  exact Finset.sum_congr rfl fun d _ => by ring

/-- The kernel's contraction plus its prepared bias is the reference's expression, for real data. -/
theorem real_identity {n : ℕ} (x mu p : Fin n → ℝ) (K L : ℝ) :
    ((∑ d, (x d * x d) * (-(1 / 2) * p d)) + (∑ d, x d * (mu d * p d)))
        + (-(1 / 2) * (K + (0 + ∑ d, (mu d * mu d) * p d)) + L)
      = -(1 / 2) * (K + (((∑ d, (x d * x d) * p d) - 2 * (∑ d, x d * (mu d * p d)))
          + (0 + ∑ d, (mu d * mu d) * p d))) + L := by
  rw [sum_fold_neg_half]
  ring

/-! ### The two formulas on the domain -/

theorem ker_eq_ref (X : Cert.Spec.SX.Idx → EReal) (M C : Cert.Spec.SM.Idx → EReal) (h : Cert.Spec.Domain X M C)
    (b : Fin 16) (t : Fin 1024) (j : Fin 2000) :
    Cert.Spec.kerAt X M C b t j = Cert.Spec.refAt X M C b t j := by
  obtain ⟨hx, hm, hc⟩ := h
  choose xr hxr using hx
  choose mr hmr using hm
  choose cr hcr using hc
  -- the reciprocal of a positive real variance is the cast of the real reciprocal
  have hprec : ∀ d : Fin 1024, prec C j d = ((1 / cr (ix2 j d) : ℝ) : EReal) := by
    intro d
    rw [prec, (hcr _).2, Ideal.div_coe (ne_of_gt (hcr _).1), cOne_eq, ← EReal.coe_mul, one_mul]
  -- and its logarithm the cast of the real logarithm
  have hlog : ∀ d : Fin 1024, Ideal.log (C (ix2 j d)) = ((Real.log (cr (ix2 j d)) : ℝ) : EReal) := by
    intro d
    rw [(hcr _).2, Ideal.log_coe, if_neg (not_le.mpr (hcr _).1)]
  unfold kerAt refAt quadBias logDet
  simp only [hprec, hlog, hxr, hmr, cZero_eq, cTwo_eq, cNegHalf_eq, c1024_eq, cLog2pi_eq, cK_eq]
  simp only [← EReal.coe_mul, ← Cert.RealSums.coe_sum, ← EReal.coe_add, ← EReal.coe_sub]
  exact congrArg _ (real_identity (fun d => xr (ix3 b t d)) (fun d => mr (ix2 j d)) (fun d => 1 / cr (ix2 j d))
    (1024 * (15417230 / 8388608)) (-(1 / 2) * (0 + ∑ d : Fin 1024, Real.log (cr (ix2 j d)))))

end Cert.Algebra

end
-- ==== Proof.Finite.lean ====
/-
  The precondition read back.

  The precondition is the conjunction of four "for all entries" tests, each a reduction by "and" of an array of
  comparison words down to a single word: |x| < +∞ for every frame entry, |μ| < +∞ for every mean, |c| < +∞ for every
  variance, and c > 0 for every variance.  A conjunction of words is 1 exactly when each word is; a reduction by "and"
  that is 1 met only 1s.  On the extended reals |x| = max x (-x), and |x| < ⊤ rules out both infinities, so x is the
  cast of a real number; a finite variance above 0 is the cast of a positive real.
-/
import proofs.«119530_j10831907520641_2_alg».proof.Pre_finite_inputs
import proofs.«119530_j10831907520641_2_alg».proof.Proof.Gen.Pre_finite_inputs
import proofs.«119530_j10831907520641_2_alg».proof.Proof.Spec
import Idealize.ShloMosaic.Lib.ReduceAll
import Idealize.ShloMosaic.PureOps.Ideal.Laws

noncomputable section

namespace Cert.Finite

open Idealize.ShloMosaic Idealize.ShloMosaic.ValueIdx

/-- A truth word is 1 exactly when its truth value is true. -/
theorem ofBool_eq_one {b : Bool} : BitVec.ofBool b = 1#1 ↔ b = true := by cases b <;> decide

/-- The word 0x7F800000 is +∞. -/
theorem inf_word : Ideal.ofBits .f32 0x7F800000#32 = (⊤ : EReal) := by simp [Ideal.ofBits, Ideal.ieee]

/-- |x| < +∞, as the comparison word being 1, says that x is the cast of a real number. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  rw [ofBool_eq_one, decide_eq_true_eq] at h
  induction x using EReal.rec with
  | bot => simp at h
  | coe r => exact ⟨r, rfl⟩
  | top => simp at h

/-- c > 0, as the comparison word being 1, says 0 < c. -/
theorem pos_of_gt_zero (c : EReal) (h : Ideal.cmp .ogt c (Ideal.ofBits .f32 0x00000000#32) = 1#1) : 0 < c := by
  rw [Ideal.ofBits_zero_f32] at h
  unfold Ideal.cmp at h
  rw [ofBool_eq_one, decide_eq_true_eq] at h
  exact h

/-- The result of a reduction over every axis has one index. -/
theorem subsingleton_scalar_idx : Subsingleton Cert.Pre_finite_inputs.S_.Idx := ⟨fun a b => funext fun d => d.elim0⟩

/-- The precondition gives the domain of the two formulas: real frames and means, positive real variances. -/
theorem domain_of_pre [Cert.Pre_finite_inputs.Facts]
    (X : FVec Ideal Cert.Pre_finite_inputs.S16x1024x1024 .f32)
    (M C : FVec Ideal Cert.Pre_finite_inputs.S2000x1024 .f32)
    (h : Cert.Pre_finite_inputs.fn (F := Ideal) X M C = fun _ => 1#1) : Cert.Spec.Domain X M C := by
  haveI := subsingleton_scalar_idx
  have e := congrFun h ix0
  dsimp only [Cert.Pre_finite_inputs.fn, Cert.Pre_finite_inputs.fn_part1, andi] at e
  rw [IntOp.andi_eq_one, IntOp.andi_eq_one, IntOp.andi_eq_one] at e
  obtain ⟨⟨⟨hX, hM⟩, hC⟩, hP⟩ := e
  refine ⟨fun i => ?_, fun i => ?_, fun i => ?_⟩
  · exact real_of_abs_lt_inf (X i) (Host.reduce_andi_all _ _ _ _ _ hX i)
  · exact real_of_abs_lt_inf (M i) (Host.reduce_andi_all _ _ _ _ _ hM i)
  · obtain ⟨r, hr⟩ := real_of_abs_lt_inf (C i) (Host.reduce_andi_all _ _ _ _ _ hC i)
    have hp : 0 < C i := pos_of_gt_zero (C i) (Host.reduce_andi_all _ _ _ _ _ hP i)
    rw [hr] at hp
    exact ⟨r, by exact_mod_cast hp, hr⟩

end Cert.Finite

end
-- ==== Proof.RefSide.lean ====
/-
  The reference program, read one operation at a time, is the reference formula of the specification.

  At the index (b, t, j) every stage of the reference reads its operands at indices built from b, t, j and the
  contraction variable d: the two contractions read the frames at (b, t, d) and the per-component arrays at (j, d), and
  the two sums over features, broadcast from [2000] through [1, 1, 2000] to the result's shape, read the per-component
  arrays at (j, d) too. With those index equations each stage unfolds to the operation it is on the extended reals, and
  the composed term is the specification's formula.
-/
import proofs.«119530_j10831907520641_2_alg».proof.Proof.Gen.ReferenceIdeal.Read
import proofs.«119530_j10831907520641_2_alg».proof.Proof.Spec

noncomputable section

namespace Cert.RefSide

open Idealize.ShloMosaic Idealize.ShloMosaic.ValueIdx Cert.ReferenceIdeal Cert.ReferenceIdeal.Read Cert.Spec

/-! ### Where each stage reads, at the index (b, t, j) -/

/-- The first contraction reads the squared frames at (b, t, d). -/
theorem lidx_v3 (b : Fin 16) (t : Fin 1024) (j : Fin 2000) (d : Fin 1024) :
    lidx_main_v3 (ix3 b t j) d = ix3 b t d :=
  funext fun a => Fin.ext (by match a with | ⟨0, _⟩ => rfl | ⟨1, _⟩ => rfl | ⟨2, _⟩ => rfl)

/-- The first contraction reads the reciprocal variances at (j, d). -/
theorem ridx_v3 (b : Fin 16) (t : Fin 1024) (j : Fin 2000) (d : Fin 1024) :
    ridx_main_v3 (ix3 b t j) d = ix2 j d :=
  funext fun a => Fin.ext (by match a with | ⟨0, _⟩ => rfl | ⟨1, _⟩ => rfl)

/-- The second contraction reads the frames at (b, t, d). -/
theorem lidx_v5 (b : Fin 16) (t : Fin 1024) (j : Fin 2000) (d : Fin 1024) :
    lidx_main_v5 (ix3 b t j) d = ix3 b t d :=
  funext fun a => Fin.ext (by match a with | ⟨0, _⟩ => rfl | ⟨1, _⟩ => rfl | ⟨2, _⟩ => rfl)

/-- The second contraction reads the scaled means at (j, d). -/
theorem ridx_v5 (b : Fin 16) (t : Fin 1024) (j : Fin 2000) (d : Fin 1024) :
    ridx_main_v5 (ix3 b t j) d = ix2 j d :=
  funext fun a => Fin.ext (by match a with | ⟨0, _⟩ => rfl | ⟨1, _⟩ => rfl)

/-- The sum of the scaled squared means, broadcast to the result, reads at (j, d). -/
theorem idx_v11 (b : Fin 16) (t : Fin 1024) (j : Fin 2000) (d : Fin 1024) :
    idx_main_v11 (idx_main_v12 (idx_main_v13 (ix3 b t j))) d = ix2 j d :=
  funext fun a => Fin.ext (by match a with | ⟨0, _⟩ => rfl | ⟨1, _⟩ => rfl)

/-- The sum of the log variances, broadcast to the result, reads at (j, d). -/
theorem idx_v16 (b : Fin 16) (t : Fin 1024) (j : Fin 2000) (d : Fin 1024) :
    idx_main_v16 (idx_main_v24 (idx_main_v25 (ix3 b t j))) d = ix2 j d :=
  funext fun a => Fin.ext (by match a with | ⟨0, _⟩ => rfl | ⟨1, _⟩ => rfl)

/-! ### The reference is the reference formula -/

theorem val_eq (X : (⟨Cert.ReferenceIdeal.S16x1024x1024, .f32⟩ : BufTy).Contents (Elt Ideal))
    (M C : (⟨Cert.ReferenceIdeal.S2000x1024, .f32⟩ : BufTy).Contents (Elt Ideal)) :
    Cert.ReferenceIdeal.Read.val_main_v26 (F := Ideal) X M C = Cert.Spec.refG X M C := by
  funext i
  obtain ⟨b, t, j, rfl⟩ : ∃ (b : Fin 16) (t : Fin 1024) (j : Fin 2000), i = ix3 b t j := ⟨i 0, i 1, i 2, eq_ix3 i⟩
  show val_main_v26 (F := Ideal) X M C (ix3 b t j) = refAt X M C b t j
  rw [val_main_v26_apply, val_main_v23_apply, val_main_v22_apply, val_main_cst_6_apply,
    val_main_v21_apply, val_main_v20_apply, val_main_v19_apply, val_main_cst_4_apply, val_main_cst_5_apply,
    val_main_v14_apply, val_main_v8_apply, val_main_v3_apply, val_main_v7_apply, val_main_v6_apply, val_main_cst_0_apply,
    val_main_v5_apply, val_main_v13_apply, val_main_v12_apply, val_main_v11_apply, val_main_cst_1_apply,
    val_main_v25_apply, val_main_v24_apply, val_main_v18_apply, val_main_v17_apply, val_main_cst_3_apply,
    val_main_v16_apply, val_main_cst_2_apply]
  simp only [lidx_v3, ridx_v3, lidx_v5, ridx_v5, idx_v11, idx_v16,
    val_main_v2_apply, val_main_v1_apply, val_main_v0_apply, val_main_cst_apply, val_main_v4_apply,
    val_main_v10_apply, val_main_v9_apply, val_main_v15_apply,
    Ideal.mulf_def, Ideal.addf_def, Ideal.subf_def, Ideal.hostDivf_def, Ideal.hostUnary_log_def, Ideal.ofBits_def]
  unfold refAt quadBias logDet prec
  rfl

end Cert.RefSide

end
-- ==== Proof.Coords.lean ====
/-
  Coordinates of the fused contraction.  The contraction runs over 2048 = 1024 + 1024 positions: position d < 1024 pairs
  the square x_d² with -½ p_d, and position 1024 + d pairs x_d with μ_d p_d.  The weight has 2048 columns of which the
  first 2000 are the components; a frame's row r = b·1024 + t of the flattened [16384, ·] arrays is frame t of batch b.
-/
import Mathlib.Data.Fin.Basic
import Mathlib.Algebra.BigOperators.Fin

namespace Cert.Coords

/-- Position d of the first half of the contraction. -/
def lo (d : Fin 1024) : Fin 2048 := ⟨d.val, by have := d.isLt; omega⟩
/-- Position 1024 + d of the second half of the contraction. -/
def hi (d : Fin 1024) : Fin 2048 := ⟨1024 + d.val, by have := d.isLt; omega⟩
/-- Component j as a column of the padded weight. -/
def col (j : Fin 2000) : Fin 2048 := ⟨j.val, by have := j.isLt; omega⟩
/-- Frame t of batch b as a row of the flattened arrays. -/
def row (b : Fin 16) (t : Fin 1024) : Fin 16384 := ⟨b.val * 1024 + t.val, by have := b.isLt; have := t.isLt; omega⟩

@[simp] theorem lo_val (d : Fin 1024) : (lo d).val = d.val := rfl
@[simp] theorem hi_val (d : Fin 1024) : (hi d).val = 1024 + d.val := rfl
@[simp] theorem col_val (j : Fin 2000) : (col j).val = j.val := rfl
@[simp] theorem row_val (b : Fin 16) (t : Fin 1024) : (row b t).val = b.val * 1024 + t.val := rfl

/-- A sum over the 2048 positions is the sum over the first half plus the sum over the second half. -/
theorem sum_halves {M : Type*} [AddCommMonoid M] (f : Fin 2048 → M) :
    ∑ k, f k = (∑ d : Fin 1024, f (lo d)) + ∑ d : Fin 1024, f (hi d) := by
  have h := Fin.sum_univ_add (a := 1024) (b := 1024) (fun k : Fin (1024 + 1024) => f k)
  exact h

end Cert.Coords
-- ==== Proof.Args.lean ====
/-
  The three argument arrays of the idealized kernel program on a device, as plain functions of an index into the
  extended reals: the frames x [16, 1024, 1024], the means μ [2000, 1024] and the variances c [2000, 1024].
-/
import proofs.«119530_j10831907520641_2_alg».proof.Proof.Gen.KernelIdeal
import proofs.«119530_j10831907520641_2_alg».proof.Proof.Spec

noncomputable section

namespace Cert.Args

open Cert.KernelIdeal Idealize.ShloMosaic Idealize.ShloMosaic.TcCoe Idealize.SL.Sem

variable (m : (ℓ : Loc nD τ sig) → Buf (Elt Ideal) ℓ)

/-- The frames as launched on device c. -/
abbrev X (c : Dev nD) : Cert.Spec.SX.Idx → EReal := m ((c : Thread nD τ).loc main_arg0)
/-- The means as launched on device c. -/
abbrev M (c : Dev nD) : Cert.Spec.SM.Idx → EReal := m ((c : Thread nD τ).loc main_arg1)
/-- The variances as launched on device c. -/
abbrev C (c : Dev nD) : Cert.Spec.SM.Idx → EReal := m ((c : Thread nD τ).loc main_arg2)

end Cert.Args

end
-- ==== Proof.Flat.lean ====
/-
  The kernel's result before its last reshape: the flattened array [16384, 2000] whose row r = b·1024 + t holds frame t
  of batch b, so that entry (r, j) is the kernel's value at frame (r / 1024, r mod 1024) and component j.
-/
import proofs.«119530_j10831907520641_2_alg».proof.Proof.Spec
import proofs.«119530_j10831907520641_2_alg».proof.Proof.Coords

noncomputable section

namespace Cert.Flat

open Idealize.ShloMosaic Idealize.ShloMosaic.ValueIdx

/-- The shape of the flattened result. -/
abbrev SF : Shape := ⟨2, ![16384, 2000]⟩

/-- The flattened result as one function of the argument arrays. -/
def G25 (X : Cert.Spec.SX.Idx → EReal) (M C : Cert.Spec.SM.Idx → EReal) : SF.Idx → EReal := fun i =>
  Cert.Spec.kerAt X M C ⟨(i 0).val / 1024, by have h : (i 0).val < 16384 := (i 0).isLt; omega⟩
    ⟨(i 0).val % 1024, Nat.mod_lt _ (by norm_num)⟩ ⟨(i 1).val, (i 1).isLt⟩

/-- Row b·1024 + t of the flattened result is frame t of batch b. -/
theorem G25_row (X : Cert.Spec.SX.Idx → EReal) (M C : Cert.Spec.SM.Idx → EReal) (b : Fin 16) (t : Fin 1024) (j : Fin 2000) :
    G25 X M C (ix2 (Cert.Coords.row b t) j) = Cert.Spec.kerAt X M C b t j := by
  unfold G25
  have hb : (⟨((ix2 (Cert.Coords.row b t) j : SF.Idx) 0).val / 1024, by
      have h : ((ix2 (Cert.Coords.row b t) j : SF.Idx) 0).val < 16384 := ((ix2 (Cert.Coords.row b t) j : SF.Idx) 0).isLt; omega⟩ : Fin 16) = b := by
    apply Fin.ext
    show (b.val * 1024 + t.val) / 1024 = b.val
    have := t.isLt; omega
  have ht : (⟨((ix2 (Cert.Coords.row b t) j : SF.Idx) 0).val % 1024, Nat.mod_lt _ (by norm_num)⟩ : Fin 1024) = t := by
    apply Fin.ext
    show (b.val * 1024 + t.val) % 1024 = t.val
    have := t.isLt; omega
  have hj : (⟨((ix2 (Cert.Coords.row b t) j : SF.Idx) 1).val, ((ix2 (Cert.Coords.row b t) j : SF.Idx) 1).isLt⟩ : Fin 2000) = j := Fin.ext rfl
  rw [hb, ht, hj]

end Cert.Flat

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.Payload.lean ====
/-
  The kernel body's stored value, entry by entry.

  The body squares the 512×1024 block of frames, lays the squares and the frames side by side as a 512×2048 row block
  [x² | x], contracts it against the 2048×2048 weight, keeps the first 2000 of the 2048 result columns and adds the
  bias row to every row.  Nothing is rounded at the ideal values, so the entry at row p and component q is

      Σ_k [x² | x](p, k) · W(k, q) + bias(q),

  and the sum over the 2048 positions splits at the seam of the two halves: position d of the first half holds x_d², and
  position 1024 + d holds x_d.
-/
import proofs.«119530_j10831907520641_2_alg».proof.Proof.Gen.KernelIdeal.Skeleton
import proofs.«119530_j10831907520641_2_alg».proof.Proof.Coords
import proofs.«119530_j10831907520641_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Payload

open Idealize.ShloMosaic Idealize.ShloMosaic.ValueIdx Cert.Coords

/-- The shapes of the body's values. -/
abbrev SA : Shape := ⟨2, ![512, 1024]⟩
abbrev SL : Shape := ⟨2, ![512, 2048]⟩
abbrev SW : Shape := ⟨2, ![2048, 2048]⟩
abbrev SB : Shape := ⟨2, ![1, 2000]⟩
abbrev SR : Shape := ⟨2, ![512, 2000]⟩

section Ops
variable {α : Type}

/-- Two 512×1024 blocks side by side: position d of the first half of a row reads the left block. -/
theorem concat_lo (A B : SA.Idx → α) (h : Shape.Concatenates [SA, SA] SL 1) (p : Fin 512) (d : Fin 1024) :
    concatenate SL 1 [⟨SA, A⟩, ⟨SA, B⟩] h (ix2 p (lo d)) = A (ix2 p d) := by
  refine concatenate_pair_apply_left 1 A B h (ix2 p (lo d)) rfl (ix2 p d) fun b => ?_
  match b with
  | ⟨0, _⟩ => rfl
  | ⟨1, _⟩ => rfl

/-- … and position 1024 + d reads the right block at d. -/
theorem concat_hi (A B : SA.Idx → α) (h : Shape.Concatenates [SA, SA] SL 1) (p : Fin 512) (d : Fin 1024) :
    concatenate SL 1 [⟨SA, A⟩, ⟨SA, B⟩] h (ix2 p (hi d)) = B (ix2 p d) := by
  refine concatenate_pair_apply_right 1 A B h (ix2 p (hi d)) rfl rfl (ix2 p d) (fun b hb => ?_) ?_
  · match b with
    | ⟨0, _⟩ => rfl
    | ⟨1, _⟩ => exact absurd rfl hb
  · show d.val + 1024 = 1024 + d.val
    omega

/-- The first 2000 columns of a 512×2048 block: the slice at offsets (0, 0) reads column q at column q. -/
theorem slice_apply (x : SL.Idx → α) (h : SL.Slices ![0, 0] SR) (p : Fin 512) (q : Fin 2000) :
    extractStridedSlice SR ![0, 0] x h (ix2 p q) = x (ix2 p (col q)) := by
  refine extractStridedSlice_apply ![0, 0] x h (ix2 p q) (ix2 p (col q)) fun a => ?_
  match a with
  | ⟨0, _⟩ => show p.val = 0 + p.val; omega
  | ⟨1, _⟩ => show q.val = 0 + q.val; omega

end Ops

/-- The body's value over variables: the contraction of [A² | A] against W, cut to 2000 columns, plus the bias row. -/
theorem pay_core (A : FVec Ideal SA .f32) (W : FVec Ideal SW .bf16) (b : FVec Ideal SB .f32)
    (hc : Shape.Concatenates [SA, SA] SL 1) (hlt : FTy.bits .bf16 < FTy.bits .f32) (hs : SL.Slices ![0, 0] SR)
    (hb : SB.Broadcasts SR) (p : Fin 512) (q : Fin 2000) :
    addf (extractStridedSlice SR ![0, 0]
        (matmul (DotDims.plain 512 2048 2048) none (truncf .bf16 (concatenate SL 1 [⟨SA, mulf A A⟩, ⟨SA, A⟩] hc) hlt) W
          (constant (F := Ideal) SL .f32 0x00000000#32)) hs)
      (broadcastTo SR b hb) (ix2 p q)
      = ((∑ d : Fin 1024, (A (ix2 p d) * A (ix2 p d)) * W (ix2 (lo d) (col q)))
          + (∑ d : Fin 1024, A (ix2 p d) * W (ix2 (hi d) (col q)))) + b (ix2 (0 : Fin 1) q) := by
  rw [addf_apply, slice_apply, broadcastTo_1b_ab_apply, Cert.PlainDot.matmul_zero_plain_apply, sum_halves]
  congr 1
  congr 1
  · refine Finset.sum_congr rfl fun d _ => ?_
    rw [truncf_apply, concat_lo, mulf_apply]
  · refine Finset.sum_congr rfl fun d _ => ?_
    rw [truncf_apply, concat_hi]

/-- The kernel body's one stored value at row p and component q. -/
theorem pay_apply (x0 : Vec Ideal Cert.KernelIdeal.S512x1024 .f32) (x1 : Vec Ideal Cert.KernelIdeal.S2048x2048 .bf16)
    (x2 : Vec Ideal Cert.KernelIdeal.S1x2000 .f32) (p : Fin 512) (q : Fin 2000) :
    Cert.KernelIdeal.Gen.k0_pay1 (F := Ideal) x0 x1 x2 (ix2 p q)
      = ((∑ d : Fin 1024, (x0 (ix2 p d) * x0 (ix2 p d)) * x1 (ix2 (Cert.Coords.lo d) (Cert.Coords.col q)))
          + (∑ d : Fin 1024, x0 (ix2 p d) * x1 (ix2 (Cert.Coords.hi d) (Cert.Coords.col q)))) + x2 (ix2 (0 : Fin 1) q) := by
  unfold Cert.KernelIdeal.Gen.k0_pay1
  rw [shapeCast_self, shapeCast_self, shapeCast_self]
  exact pay_core x0 x1 x2 _ _ _ _ p q

end Cert.Payload

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.HostPrefix.lean ====
/-
  What the kernel program's host operations leave in the three buffers its region reads, entry by entry.

  Before the region the program prepares, outside the contraction:
    * the frames [16, 1024, 1024] flattened to [16384, 1024]: row b·1024 + t is frame t of batch b;
    * the weight [2048, 2048] of the fused contraction: with p = 1 / c the reciprocal variances, the array -1/2 p and
      the array mu p, each [2000, 1024], are padded with 48 zero rows to [2048, 1024], transposed to [1024, 2048] and
      stacked, so that row d < 1024 at column j < 2000 holds -1/2 p(j, d) and row 1024 + d holds mu(j, d) p(j, d);
    * the bias [1, 2000]: at column j, -1/2 (K + sum_d mu(j, d)^2 p(j, d)) + (-1/2 sum_d log c(j, d)).

  Each operation is read at an index over arbitrary arrays first (a broadcast scalar, a row sum, a padded row, a
  transposed and stacked entry); the three buffers are then the composed terms at the launched arrays.
-/
import proofs.«119530_j10831907520641_2_alg».proof.Proof.Gen.KernelIdeal.Frame
import proofs.«119530_j10831907520641_2_alg».proof.Proof.Spec
import proofs.«119530_j10831907520641_2_alg».proof.Proof.Coords
import proofs.«119530_j10831907520641_2_alg».proof.Proof.LibLayout
import proofs.«119530_j10831907520641_2_alg».proof.Proof.Args
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.HostPrefix

open Idealize.ShloMosaic Idealize.ShloMosaic.TcCoe Idealize.SL.Sem Idealize.ShloMosaic.StableHlo Idealize.ShloMosaic.ValueIdx
open Cert.KernelIdeal Cert.KernelIdeal.Gen

/-! ### The operations over arbitrary arrays, read at an index -/

/-- A scalar broadcast to a shape reads the scalar everywhere. -/
theorem bcast_scalar_apply {t : Shape} (h : S_.BroadcastsInDim t (![] : Fin 0 → Fin t.rank)) (v : FVec Ideal S_ .f32)
    (i : t.Idx) : broadcastInDim t ![] h v i = v ix0 :=
  broadcastInDim_apply _ h v i ix0 (fun a => a.elim0)

/-- The reciprocal variances 1 / c as an array. -/
def precMat (C : FVec Ideal S2000x1024 .f32) : FVec Ideal S2000x1024 .f32 :=
  Host.divf (F := Ideal) (broadcastInDim S2000x1024 ![] bcast_S_S2000x1024 (constant (F := Ideal) S_ .f32 0x3F800000#32)) C

theorem precMat_apply (C : FVec Ideal S2000x1024 .f32) (j : Fin 2000) (d : Fin 1024) :
    precMat C (ix2 j d) = Cert.Spec.prec C j d := by
  show Ideal.div (broadcastInDim S2000x1024 ![] bcast_S_S2000x1024 (constant (F := Ideal) S_ .f32 0x3F800000#32) (ix2 j d))
    (C (ix2 j d)) = _
  rw [bcast_scalar_apply]
  rfl

/-- A sum over the features of row j, from an initial scalar. -/
theorem reduce_row_apply (y : FVec Ideal S2000x1024 .f32) (v : FVec Ideal S_ .f32) (j : Fin 2000) :
    Host.reduceAdd (F := Ideal) y v reducesTo_S2000x1024_S2000_d1 h_S_ (ix1 j)
      = v (Shape.Idx.first h_S_) + ∑ d : Fin 1024, y (ix2 j d) := by
  simp only [Host.reduceAdd, Ideal.hostReduceAdd_def]
  rw [Ideal.hostReduceAdd_single reducesTo_S2000x1024_S2000_d1 (by decide)]
  refine congrArg (_ + ·) (Finset.sum_congr rfl fun k _ => ?_)
  exact congrArg y (funext fun a => Fin.ext (by match a with | ⟨0, _⟩ => rfl | ⟨1, _⟩ => rfl))

/-- The bias of every component, as the vector the host code computes. -/
def biasVec (M C : FVec Ideal S2000x1024 .f32) : FVec Ideal S2000 .f32 :=
  addf
    (mulf (broadcastInDim S2000 ![] bcast_S_S2000 (constant (F := Ideal) S_ .f32 0xBF000000#32))
      (addf (broadcastInDim S2000 ![] bcast_S_S2000 (constant (F := Ideal) S_ .f32 0x44EB3F8E#32))
        (Host.reduceAdd (F := Ideal) (mulf (mulf M M) (precMat C)) (constant (F := Ideal) S_ .f32 0x00000000#32)
          reducesTo_S2000x1024_S2000_d1 h_S_)))
    (mulf (broadcastInDim S2000 ![] bcast_S_S2000 (constant (F := Ideal) S_ .f32 0xBF000000#32))
      (Host.reduceAdd (F := Ideal) (Host.log (F := Ideal) C) (constant (F := Ideal) S_ .f32 0x00000000#32)
        reducesTo_S2000x1024_S2000_d1 h_S_))

theorem biasVec_apply (M C : FVec Ideal S2000x1024 .f32) (j : Fin 2000) :
    biasVec M C (ix1 j)
      = (Cert.Spec.cNegHalf * (Cert.Spec.cK + Cert.Spec.quadBias M C j)) + Cert.Spec.logDet C j := by
  unfold biasVec
  simp only [addf_apply, mulf_apply, bcast_scalar_apply, reduce_row_apply, precMat_apply, constant_apply]
  unfold Cert.Spec.quadBias Cert.Spec.logDet
  rfl

/-- An array padded with 48 rows below, read at a row of the operand. -/
theorem pad_rows_apply (x : FVec Ideal S2000x1024 .f32) (v : FVec Ideal S_ .f32) (j : Fin 2000) (d : Fin 1024) :
    pad S2048x1024 ![0, 0] ![48, 0] ![0, 0] x v pads_S2000x1024_S2048x1024_0480_000 h_S_ (ix2 (Cert.Coords.col j) d)
      = x (ix2 j d) :=
  pad_apply_of_inside _ _ _ x v pads_S2000x1024_S2048x1024_0480_000 h_S_ _ (ix2 j d) (fun a => by
    match a with
    | ⟨0, _⟩ => show j.val = 0 + j.val * (0 + 1); omega
    | ⟨1, _⟩ => show d.val = 0 + d.val * (0 + 1); omega)

/-- The weight of the fused contraction: the rows d < 1024 hold -1/2 p, the rows 1024 + d hold mu p, each transposed
    from the per-component layout and padded to 2048 columns. -/
def weightMat (M C : FVec Ideal S2000x1024 .f32) : FVec Ideal S2048x2048 .bf16 :=
  truncf .bf16
    (concatenate S2048x2048 0
      [⟨S1024x2048, transpose S1024x2048 [1, 0]
          (mulf (broadcastInDim S2048x1024 ![] bcast_S_S2048x1024 (constant (F := Ideal) S_ .f32 0xBF000000#32))
            (pad S2048x1024 ![0, 0] ![48, 0] ![0, 0] (precMat C) (sitofp (F := Ideal) .f32 (constantI S_ 32 0#32))
              pads_S2000x1024_S2048x1024_0480_000 h_S_))
          transposes_S2048x1024_S1024x2048_1_0⟩,
       ⟨S1024x2048, transpose S1024x2048 [1, 0]
          (pad S2048x1024 ![0, 0] ![48, 0] ![0, 0] (mulf M (precMat C)) (sitofp (F := Ideal) .f32 (constantI S_ 32 0#32))
            pads_S2000x1024_S2048x1024_0480_000 h_S_)
          transposes_S2048x1024_S1024x2048_1_0⟩]
      concatenates_S1024x2048_S1024x2048_S2048x2048_d0)
    bitsLt_bf16_f32

theorem weightMat_lo_apply (M C : FVec Ideal S2000x1024 .f32) (d : Fin 1024) (j : Fin 2000) :
    weightMat M C (ix2 (Cert.Coords.lo d) (Cert.Coords.col j)) = Cert.Spec.cNegHalf * Cert.Spec.prec C j d := by
  unfold weightMat
  rw [truncf_apply,
    concatenate_pair_apply_left (0 : Fin S2048x2048.rank) _ _ concatenates_S1024x2048_S1024x2048_S2048x2048_d0
      (ix2 (Cert.Coords.lo d) (Cert.Coords.col j)) rfl (ix2 d (Cert.Coords.col j))
      (fun b => by match b with | ⟨0, _⟩ => rfl | ⟨1, _⟩ => rfl),
    transpose_ix2_apply, mulf_apply, bcast_scalar_apply, pad_rows_apply, precMat_apply, constant_apply]

theorem weightMat_hi_apply (M C : FVec Ideal S2000x1024 .f32) (d : Fin 1024) (j : Fin 2000) :
    weightMat M C (ix2 (Cert.Coords.hi d) (Cert.Coords.col j)) = M (ix2 j d) * Cert.Spec.prec C j d := by
  unfold weightMat
  rw [truncf_apply,
    concatenate_pair_apply_right (0 : Fin S2048x2048.rank) _ _ concatenates_S1024x2048_S1024x2048_S2048x2048_d0
      (ix2 (Cert.Coords.hi d) (Cert.Coords.col j)) rfl rfl (ix2 d (Cert.Coords.col j))
      (fun b hb => by
        match b, hb with
        | ⟨0, _⟩, hb => exact absurd rfl hb
        | ⟨1, _⟩, _ => rfl)
      (by show d.val + 1024 = 1024 + d.val; omega),
    transpose_ix2_apply, pad_rows_apply, mulf_apply, precMat_apply]

/-! ### What the host operations before the region leave in the buffers the region reads -/

variable (m : (ℓ : Loc nD τ sig) → Buf (Elt Ideal) ℓ)

/-- The frames, flattened to [16384, 1024]. -/
theorem V_main_v0_eq (c : Dev nD) :
    (V m c main_v0 : S16384x1024.Idx → EReal)
      = shapeCast S16384x1024 (Cert.Args.X m c) shapeCasts_S16x1024x1024_S16384x1024 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 4000000 in
/-- The bias vector, stood up as a row [1, 2000]. -/
theorem V_main_v16_eq (c : Dev nD) :
    (V m c main_v16 : S1x2000.Idx → EReal)
      = shapeCast S1x2000 (biasVec (Cert.Args.M m c) (Cert.Args.C m c)) shapeCasts_S2000_S1x2000 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 4000000 in
/-- The weight of the fused contraction. -/
theorem V_main_v24_eq (c : Dev nD) :
    (V m c main_v24 : S2048x2048.Idx → EReal) = weightMat (Cert.Args.M m c) (Cert.Args.C m c) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- Row b·1024 + t of the flattened frames is frame t of batch b. -/
theorem x2d_apply (c : Dev nD) (b : Fin 16) (t : Fin 1024) (d : Fin 1024) :
    (V m c main_v0 : S16384x1024.Idx → EReal) (ix2 (Cert.Coords.row b t) d) = Cert.Args.X m c (ix3 b t d) :=
  (congrFun (V_main_v0_eq m c) _).trans
    (Cert.LibLayout.shapeCast_abc_mc_apply _ _ (Cert.Coords.row b t) b t d rfl)

/-- Row d of the weight at column j is -1/2 p. -/
theorem weight_lo_apply (c : Dev nD) (d : Fin 1024) (j : Fin 2000) :
    (V m c main_v24 : S2048x2048.Idx → EReal) (ix2 (Cert.Coords.lo d) (Cert.Coords.col j))
      = Cert.Spec.cNegHalf * Cert.Spec.prec (Cert.Args.C m c) j d :=
  (congrFun (V_main_v24_eq m c) _).trans (weightMat_lo_apply _ _ d j)

/-- Row 1024 + d of the weight at column j is mu p. -/
theorem weight_hi_apply (c : Dev nD) (d : Fin 1024) (j : Fin 2000) :
    (V m c main_v24 : S2048x2048.Idx → EReal) (ix2 (Cert.Coords.hi d) (Cert.Coords.col j))
      = Cert.Args.M m c (ix2 j d) * Cert.Spec.prec (Cert.Args.C m c) j d :=
  (congrFun (V_main_v24_eq m c) _).trans (weightMat_hi_apply _ _ d j)

/-- The bias row at column j is the bias of component j. -/
theorem bias_apply (c : Dev nD) (j : Fin 2000) :
    (V m c main_v16 : S1x2000.Idx → EReal) (ix2 (0 : Fin 1) j)
      = (Cert.Spec.cNegHalf * (Cert.Spec.cK + Cert.Spec.quadBias (Cert.Args.M m c) (Cert.Args.C m c) j))
        + Cert.Spec.logDet (Cert.Args.C m c) j :=
  (congrFun (V_main_v16_eq m c) _).trans
    ((shapeCast_a_1a_apply _ _ (0 : Fin 1) j).trans (biasVec_apply _ _ j))

end Cert.HostPrefix

end
-- ==== Proof.Blocks.lean ====
/-
  The kernel's output array, assembled from its row blocks.

  The region visits 32 points; point t works on rows t·512 … t·512 + 511 of the flattened frames [16384, 1024] and writes
  rows t·512 … t·512 + 511 of the flattened result [16384, 2000]; the weight [2048, 2048] and the bias row [1, 2000] are the
  same whole arrays at every point.  At row p of its block and component q the body stores

      (Σ_d x_d² · W(d, q) + Σ_d x_d · W(1024 + d, q)) + bias(q),      x = row t·512 + p of the frames,

  and the host operations before the region make W(d, q) = -½ p_d, W(1024 + d, q) = μ_d p_d and bias(q) the prepared bias of
  component q, so the stored value is the kernel's formula at frame (r / 1024, r mod 1024), r = t·512 + p.  The 32 blocks
  tile the result (row r lies in the block of point r / 512), hence after the region the whole flattened result is that
  one function of the arguments.
-/
import proofs.«119530_j10831907520641_2_alg».proof.Proof.Gen.KernelIdeal.Frame
import proofs.«119530_j10831907520641_2_alg».proof.Proof.Spec
import proofs.«119530_j10831907520641_2_alg».proof.Proof.Coords
import proofs.«119530_j10831907520641_2_alg».proof.Proof.Args
import proofs.«119530_j10831907520641_2_alg».proof.Proof.Flat
import proofs.«119530_j10831907520641_2_alg».proof.Proof.Payload
import proofs.«119530_j10831907520641_2_alg».proof.Proof.HostPrefix
import Idealize.ShloMosaic.Lib.Pipeline.Value
import Idealize.ShloMosaic.Lib.ValueIdx
import Idealize.ShloMosaic.PureOps.Ideal.Laws

set_option maxRecDepth 16384

noncomputable section

namespace Cert.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem hz : (![0, 0] : Fin 2 → Nat) = fun _ => 0 := funext fun a => by fin_cases a <;> rfl

/-- The block index of each window at point t: the frames and the result move with t along the rows, the weight and
    the bias stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are 32 points. -/
theorem t_lt (t : Fin cfg0.N) : t.val < 32 := N_0 ▸ t.isLt

/-- Row t·512 + p is a row of the flattened arrays. -/
theorem row_lt (t : Fin cfg0.N) (p : Fin 512) : t.val * 512 + p.val < 16384 := by
  have := t_lt t; have := p.isLt; omega

/-- Entry (p, d) of the frames' block at point t is entry (t·512 + p, d) of the flattened frames. -/
theorem read0 (c : Dev nD) (t : Fin cfg0.N) (p : Fin 512) (d : Fin 1024) :
    iblk m c 0 t (ix2 p d) = (V m c main_v0 : S16384x1024.Idx → EReal) (ix2 ⟨t.val * 512 + p.val, row_lt t p⟩ d) := by
  obtain ⟨e0, e1, -⟩ := idx_facts t
  show V m c main_v0 (((cfg0.win 0).blk t).view.emb (ix2 p d)) = V m c main_v0 _
  refine congrArg (V m c main_v0) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * d.val = d.val; omega

/-- The weight's block at every point is the whole weight. -/
theorem read1 (c : Dev nD) (t : Fin cfg0.N) (k : Fin 2048) (q : Fin 2048) :
    iblk m c 1 t (ix2 k q) = (V m c main_v24 : S2048x2048.Idx → EReal) (ix2 k q) := by
  obtain ⟨-, -, e0, e1, -⟩ := idx_facts t
  show V m c main_v24 (((cfg0.win 1).blk t).view.emb (ix2 k q)) = V m c main_v24 _
  refine congrArg (V m c main_v24) (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- The bias's block at every point is the whole bias row. -/
theorem read2 (c : Dev nD) (t : Fin cfg0.N) (u : Fin 1) (q : Fin 2000) :
    iblk m c 2 t (ix2 u q) = (V m c main_v16 : S1x2000.Idx → EReal) (ix2 (0 : Fin 1) q) := by
  obtain ⟨-, -, -, -, e0, e1, -⟩ := idx_facts t
  show V m c main_v16 (((cfg0.win 2).blk t).view.emb (ix2 u q)) = V m c main_v16 _
  refine congrArg (V m c main_v16) (funext fun a => Fin.ext ?_)
  match a with
  | ⟨0, _⟩ => show win0_2.index t (0 : Fin 2) * 1 + 1 * u.val = 0; omega
  | ⟨1, _⟩ => show win0_2.index t (1 : Fin 2) * 2000 + 1 * q.val = q.val; omega

/-- Entry (p, q) of the result's block at point t sits at (t·512 + p, q) of the flattened result. -/
theorem emb3 (t : Fin cfg0.N) (p : Fin 512) (q : Fin 2000) :
    ((cfg0.win 3).blk t).view.emb (ix2 p q) = (ix2 ⟨t.val * 512 + p.val, row_lt t p⟩ q : S16384x2000.Idx) := by
  obtain ⟨-, -, -, -, -, -, e0, e1⟩ := idx_facts t
  refine funext fun a => Fin.ext ?_
  match a with
  | ⟨0, _⟩ => show win0_3.index t (0 : Fin 2) * 512 + 1 * p.val = t.val * 512 + p.val; omega
  | ⟨1, _⟩ => show win0_3.index t (1 : Fin 2) * 2000 + 1 * q.val = q.val; omega

/-- Row t·512 + p of the flattened arrays, as frame (b, u). -/
theorem row_split (t : Fin cfg0.N) (p : Fin 512) :
    (⟨t.val * 512 + p.val, row_lt t p⟩ : Fin 16384)
      = Cert.Coords.row ⟨(t.val * 512 + p.val) / 1024, by have := row_lt t p; omega⟩ ⟨(t.val * 512 + p.val) % 1024, Nat.mod_lt _ (by norm_num)⟩ := by
  apply Fin.ext
  show t.val * 512 + p.val = (t.val * 512 + p.val) / 1024 * 1024 + (t.val * 512 + p.val) % 1024
  omega

/-- What point t writes back is block t of the flattened result's function. -/
theorem flushed3_eq (c : Dev nD) (t : Fin cfg0.N) :
    (dats m 0 c).flushed 3 t = ((cfg0.win 3).blk t).view.read (Elt Ideal)
      (Cert.Flat.G25 (Cert.Args.X m c) (Cert.Args.M m c) (Cert.Args.C m c)) := by
  show (cfg0.win 3).cut (grid0.coords t) ((dats m 0 c).after 3 t) = _
  rw [after0_3]
  unfold out0_3
  rw [View.canon_unit_zero hz]
  simp only [View.ld_unit_zero (S := S512x1024) hz, View.ld_unit_zero (S := S2048x2048) hz, View.ld_unit_zero (S := S1x2000) hz]
  funext y
  obtain ⟨p, q, rfl⟩ : ∃ (p : Fin 512) (q : Fin 2000), y = ix2 p q := ⟨y 0, y 1, eq_ix2 y⟩
  show k0_pay1 (iblk m c 0 t) (iblk m c 1 t) (iblk m c 2 t) (ix2 p q)
    = Cert.Flat.G25 (Cert.Args.X m c) (Cert.Args.M m c) (Cert.Args.C m c) (((cfg0.win 3).blk t).view.emb (ix2 p q))
  rw [emb3, row_split, Cert.Flat.G25_row]
  refine (Cert.Payload.pay_apply (iblk m c 0 t) (iblk m c 1 t) (iblk m c 2 t) p q).trans ?_
  simp only [read0, read1, read2, row_split]
  unfold Cert.Spec.kerAt
  refine congrArg₂ (· + ·) (congrArg₂ (· + ·) (Finset.sum_congr rfl fun d _ => ?_) (Finset.sum_congr rfl fun d _ => ?_)) ?_
  · rw [Cert.HostPrefix.x2d_apply, Cert.HostPrefix.weight_lo_apply]
  · rw [Cert.HostPrefix.x2d_apply, Cert.HostPrefix.weight_hi_apply]
  · rw [Cert.HostPrefix.bias_apply]

/-- An index of the flattened result lies in point t's block when its row lies in rows t·512 … t·512 + 511. -/
theorem mem_blk3 (t : Fin cfg0.N) (i : S16384x2000.Idx) :
    i ∈ ((cfg0.win 3).blk t).view.set ↔ ∀ a : Fin 2, win0_3.index t a * S512x2000.size a ≤ (i a).val ∧ (i a).val < win0_3.index t a * S512x2000.size a + S512x2000.size a := by
  show i ∈ ((View.whole main_v25).slice (win0_3.rect t)).set ↔ _
  rw [View.set_slice_whole, Rect.mem_set_unit]
  exact Iff.rfl

/-- Every index of the flattened result lies in the block of the point its row belongs to, r / 512. -/
theorem cover3 (i : S16384x2000.Idx) : ∃ t : Fin cfg0.N, (cfg0.win 3).flush t = true ∧ i ∈ ((cfg0.win 3).blk t).view.set := by
  have hi0 : (i 0).val < 16384 := (i 0).isLt
  have hi1 : (i 1).val < 2000 := (i 1).isLt
  have hN : (i 0).val / 512 < cfg0.N := by rw [show cfg0.N = 32 from N_0]; omega
  obtain ⟨-, -, -, -, -, -, e0, e1⟩ := idx_facts ⟨(i 0).val / 512, hN⟩
  refine ⟨⟨(i 0).val / 512, hN⟩, flush0_3 _, ?_⟩
  rw [mem_blk3]
  intro a
  match a with
  | ⟨0, _⟩ =>
    show win0_3.index ⟨(i 0).val / 512, hN⟩ (0 : Fin 2) * 512 ≤ (i 0).val ∧ (i 0).val < win0_3.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, hN⟩ (1 : Fin 2) * 2000 ≤ (i 1).val ∧ (i 1).val < win0_3.index ⟨(i 0).val / 512, hN⟩ (1 : Fin 2) * 2000 + 2000
    rw [e1]
    omega

/-- After the region the flattened result holds the kernel's value at every frame and component. -/
theorem final3 (c : Dev nD) :
    (dats m 0 c).arrAt 3 cfg0.N = Cert.Flat.G25 (Cert.Args.X m c) (Cert.Args.M m c) (Cert.Args.C m c) :=
  (dats m 0 c).arrAt_eq_of_cover 3 _ (fun t _ => flushed3_eq m c t) cover3

end Cert.Blocks
end
-- ==== Proof.Tail.lean ====
/-
  The last line of the kernel program and the program's run.

  After the region the program has one line: the flattened result [16384, 2000] is reshaped to [16, 1024, 2000].  In
  row-major order entry (b, t, j) of the reshaped array is entry (b·1024 + t, j) of the flat one, and row b·1024 + t of
  the flat result is frame t of batch b; so once the region's output array holds the flat result, the program's result
  is the kernel's formula at every frame and component, and the arguments end as launched.
-/
import proofs.«119530_j10831907520641_2_alg».proof.Proof.Gen.KernelIdeal.Frame
import proofs.«119530_j10831907520641_2_alg».proof.Proof.Args
import proofs.«119530_j10831907520641_2_alg».proof.Proof.Flat
import proofs.«119530_j10831907520641_2_alg».proof.Proof.Spec
import proofs.«119530_j10831907520641_2_alg».proof.Proof.Coords
import proofs.«119530_j10831907520641_2_alg».proof.Proof.LibLayout
import Idealize.ShloMosaic.Lib.StableHlo.Run
import Idealize.ShloMosaic.Lib.Pipeline.Value
import Idealize.ShloMosaic.Lib.ValueIdx

noncomputable section

namespace Cert.Tail

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The program's result: the one line after the region reshapes the region's output array; where that array holds the
    flat result, entry (b, t, j) of the reshaped array is the kernel's formula at frame (b, t) and component j. -/
theorem tail_eq (c : Dev nD)
    (hfin : (dats m 0 c).arrAt 3 cfg0.N = Cert.Flat.G25 (Cert.Args.X m c) (Cert.Args.M m c) (Cert.Args.C m c)) :
    Pipeline.afterTail₀ cfgs (dats m) 0 (V0 m) [hostOps1] c main_v26
      = Cert.Spec.kerG (Cert.Args.X m c) (Cert.Args.M m c) (Cert.Args.C m c) := by
  unfold Pipeline.afterTail₀
  show StableHlo.after hostOps1 _ (Proc.devRef .tc main_v26) = _
  after_results
  -- the reshape's operand is the region's output array, window 3's
  have e : Pipeline.withArrays (cfgs 0).spec c (V0 m c) (fun w => (dats m 0 c).arrAt w (cfgs 0).N) (Proc.devRef .tc main_v25)
      = Cert.Flat.G25 (Cert.Args.X m c) (Cert.Args.M m c) (Cert.Args.C m c) :=
    (Pipeline.withArrays_arr spec0 launch0.win.arr_inj c _ _ 3).trans hfin
  rw [e]
  funext i
  obtain ⟨b, t, j, rfl⟩ : ∃ (b : Fin 16) (t : Fin 1024) (j : Fin 2000), i = ix3 b t j := ⟨i 0, i 1, i 2, eq_ix3 i⟩
  show shapeCast Cert.Spec.SO (Cert.Flat.G25 (Cert.Args.X m c) (Cert.Args.M m c) (Cert.Args.C m c)) _ (ix3 b t j) = _
  -- row-major: (b, t, j) of [16, 1024, 2000] is (b·1024 + t, j) of [16384, 2000]
  rw [Cert.LibLayout.shapeCast_mc_abc_apply _ _ (Cert.Coords.row b t) b t j rfl, Cert.Flat.G25_row]
  rfl

/-- The program's run: once the region's output array is known to hold the flat result on every device, every fair
    execution terminates with the result buffer at the kernel's formula and the three arguments as launched. -/
theorem run_of_final
    (hfin : ∀ c : Dev nD, (dats m 0 c).arrAt 3 cfg0.N = Cert.Flat.G25 (Cert.Args.X m c) (Cert.Args.M m c) (Cert.Args.C m c)) :
    θ_run defs (onTc (τ := τ) (main (F := Ideal))) ⟨m, fun _ => 0, ρ⟩ (fun r => ∀ c : Dev nD,
      r.2.mem ((c.tc : Thread nD τ).loc main_v26) = Cert.Spec.kerG (Cert.Args.X m c) (Cert.Args.M m c) (Cert.Args.C m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v26 (Pipeline.mem_restRefs_of main_v26 (by decide) (by decide))).trans (tail_eq m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Tail

end
-- ==== Proof.lean ====
/-
  Diagonal-Gaussian log-likelihood of every (frame, component) pair: the kernel against its reference, on the extended reals.

  For a frame x (1024 features), a component with means μ and variances c, and p = 1 / c, the reference computes

      -½ · (1024·log 2π + ((Σ x² p − 2 Σ x (μ p)) + Σ μ² p)) + (-½ · Σ log c),

  while the kernel contracts the row [x² | x] against the column [-½ p ; μ p] in one product over 2048 positions and adds a
  bias -½ · (K + Σ μ² p) + (-½ · Σ log c) prepared outside it, K the single-precision word of 1024·log 2π.  The two agree
  because multiplication distributes over these sums — which on the extended reals needs every term finite: the
  precondition says that the inputs are finite and that the variances are positive, so 1 / c and log c are real numbers and
  the identity is one of real arithmetic (K is exactly 1024 times the reference's word for log 2π: same mantissa, exponent
  ten higher).  At a zero variance the identity fails (with x = μ = 1 the kernel's value is -∞ and the reference's +∞), which
  is why positivity of the variances — the domain of the reference's own logarithm — is part of the precondition.

  The pieces: the two sides as formulas (Spec), their equality under the precondition's domain (Algebra), the domain from the
  precondition (Finite), the reference's result read index by index (RefSide), the kernel's host operations before its
  region read at an index (HostPrefix), the body's one store at an entry (Payload), the output array assembled from the 32
  row blocks (Blocks), and the final reshape with the run (Tail).  The three frames are the generated ones; nothing was
  rewritten when the kernel was idealized, so there is nothing to preserve.
-/
import proofs.«119530_j10831907520641_2_alg».proof.Defs
import proofs.«119530_j10831907520641_2_alg».proof.Proof.Gen.Kernel
import proofs.«119530_j10831907520641_2_alg».proof.Proof.Gen.Kernel.Skeleton
import proofs.«119530_j10831907520641_2_alg».proof.Proof.Gen.Kernel.Launch
import proofs.«119530_j10831907520641_2_alg».proof.Proof.Gen.Kernel.Points
import proofs.«119530_j10831907520641_2_alg».proof.Proof.Gen.Kernel.Frame
import proofs.«119530_j10831907520641_2_alg».proof.Proof.Gen.KernelIdeal
import proofs.«119530_j10831907520641_2_alg».proof.Proof.Gen.KernelIdeal.Skeleton
import proofs.«119530_j10831907520641_2_alg».proof.Proof.Gen.KernelIdeal.Launch
import proofs.«119530_j10831907520641_2_alg».proof.Proof.Gen.KernelIdeal.Points
import proofs.«119530_j10831907520641_2_alg».proof.Proof.Gen.KernelIdeal.Frame
import proofs.«119530_j10831907520641_2_alg».proof.Proof.Gen.ReferenceIdeal
import proofs.«119530_j10831907520641_2_alg».proof.Proof.Gen.ReferenceIdeal.Run
import proofs.«119530_j10831907520641_2_alg».proof.Proof.Gen.ReferenceIdeal.Read
import proofs.«119530_j10831907520641_2_alg».proof.Proof.Gen.Pre_finite_inputs
import proofs.«119530_j10831907520641_2_alg».proof.Proof.Algebra
import proofs.«119530_j10831907520641_2_alg».proof.Proof.Finite
import proofs.«119530_j10831907520641_2_alg».proof.Proof.RefSide
import proofs.«119530_j10831907520641_2_alg».proof.Proof.Blocks
import proofs.«119530_j10831907520641_2_alg».proof.Proof.Tail
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no region: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with, at frame (b, t) and component j, the kernel's formula: the kernel by its run, the reference
    because under the precondition its own formula equals the kernel's. -/
theorem algebraic : Cert.algebraic_KernelIdeal_ReferenceIdeal := by
  intro m ρ m' ρ' hpre hagree
  refine ⟨fun c => Cert.Spec.kerG (Cert.Args.X m c) (Cert.Args.M m c) (Cert.Args.C m c),
    Cert.Tail.run_of_final m ρ (fun c => Cert.Blocks.final3 m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2, Cert.RefSide.val_eq]
  funext i
  exact (Cert.Algebra.ker_eq_ref _ _ _ (Cert.Finite.domain_of_pre _ _ _ (hpre c)) (i 0) (i 1) (i 2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
